-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S64x128 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S2000x64 : Shape := ⟨2, ![2000, 64]⟩
abbrev S128x64 : Shape := ⟨2, ![128, 64]⟩

abbrev nBuf : Space → Nat
  | .hbm => 68
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x64, .f32⟩
  | .hbm, ⟨67, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S64x128, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S64_S1x64 : S64.ShapeCasts S1x64
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S128x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Aggregate.lean ====
/-
  The graph convolution's aggregation, as one function of the transformed features.

  The edge list e is a 2 × 1600000 array of node numbers: row 0 the sources, row 1 the targets.  Every node is given a
  loop to itself, so sources and targets become lists of 1700000 numbers (the edges, then 0 … 99999).  The degree of a
  node is the number of times it occurs among the targets (a scatter-add of ones into zeros).  Each edge s → d is weighted
  by  1/√deg(s) · 1/√deg(d)  (taken as zero where the degree is not positive), and the aggregated feature of node d is the
  sum over the edges s → d of that weight times row s of the transformed features xw (a gather of rows, a product, a
  scatter-add into zeros), plus the bias b.  A negative node number is read as counted from the end before a gather.

  The definitions below spell this with the reference program's own operations, so that the reference's result is this
  function by unfolding; nothing else is ever proved about it: both programs apply it to equal arguments.
-/
import proofs.«167798_j36249523978623_1_alg».proof.Proof.Gen.ReferenceIdeal

noncomputable section

namespace Cert.ReferenceIdeal.Conv

open Cert.ReferenceIdeal Cert.ReferenceIdeal.Gen Idealize.ShloMosaic

variable {F : FTy → Type} [FloatOps F]

/-- The sources: row 0 of the edge list, then every node once. -/
def sources (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, then every node once. -/
def targets (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counted from the end: v + 100000 where v < 0, else v. -/
def wrapIndex (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The degree of every node: ones added into zeros at the targets. -/
def degree (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (targets e)) (broadcastInDim S1700000 ![] bcast_S_S1700000 (constant S_ .f32 0x3F800000#32))

/-- 1/√degree where the degree is positive, zero elsewhere. -/
def invSqrtDegree (e : IVec S2x1600000 32) : FVec F S100000 .f32 :=
  select (cmpf (F := F) .ogt (degree (F := F) e) (broadcastInDim S100000 ![] bcast_S_S100000 (constant S_ .f32 0x00000000#32))) (Host.rsqrt (degree (F := F) e)) (broadcastInDim S100000 ![] bcast_S_S100000 (id (constant S_ .f32 0x00000000#32)))

/-- The aggregated features: per edge the product of the two ends' 1/√degree times the source's row of xw, added into
    zeros at the target's row; plus the bias on every row. -/
def aggregate (xw : FVec F S100000x128 .f32) (e : IVec S2x1600000 32) (b : FVec F S128 .f32) : FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (targets e)) (mulf (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (invSqrtDegree (F := F) e) (broadcastInDim S1700000x1 ![0] bcast_S1700000_S1700000x1_0 (wrapIndex (sources e)))) (Host.gather gather_S100000_S1700000x1_S1700000_n_0_n_n_0_1_1 (invSqrtDegree (F := F) e) (broadcastInDim S1700000x1 ![0] bcast_S1700000_S1700000x1_0 (wrapIndex (targets e))))))) (Host.gather gather_S100000x128_S1700000x1_S1700000x128_1_0_n_n_0_1_1128 xw (broadcastInDim S1700000x1 ![0] bcast_S1700000_S1700000x1_0 (wrapIndex (sources e)))))) (broadcastInDim S100000x128 ![0, 1] bcast_S1x128_S100000x128_0_1 (broadcastInDim S1x128 ![1] bcast_S128_S1x128_1 b))

end Cert.ReferenceIdeal.Conv

end
-- ==== Proof.RefTerm.lean ====
/-
  The reference's result as three stages: the product x · W, the aggregation over the graph, the final linear layer.
-/
import proofs.«167798_j36249523978623_1_alg».proof.Proof.RefRun
import proofs.«167798_j36249523978623_1_alg».proof.Proof.Aggregate

noncomputable section

namespace Cert.ReferenceIdeal.Stages

open Cert.ReferenceIdeal Cert.ReferenceIdeal.Gen Cert.ReferenceIdeal.Conv Idealize.ShloMosaic Idealize.ShloMosaic.TcCoe Idealize.SL.Sem

variable {F : FTy → Type} [FloatOps F]

/-- The final layer as the reference spells it: h times the transposed weight matrix, plus the bias on every row. -/
def linearHost (h : FVec F S100000x128 .f32) (W : FVec F S64x128 .f32) (b : FVec F S64 .f32) : FVec F S100000x64 .f32 :=
  addf (Host.dotGeneral dot_S100000x128_S128x64_S100000x64_1_0_0_1_n_n none h (transpose S128x64 [1, 0] W transposes_S64x128_S128x64_1_0))
    (broadcastInDim S100000x64 ![0, 1] bcast_S1x64_S100000x64_0_1 (broadcastInDim S1x64 ![1] bcast_S64_S1x64_1 b))

/-- The product as the reference spells it. -/
def productHost (x : FVec F S100000x128 .f32) (W : FVec F S128x128 .f32) : FVec F S100000x128 .f32 :=
  Host.dotGeneral dot_S100000x128_S128x128_S100000x128_1_0_0_1_n_n none x W

set_option maxRecDepth 8192 in
/-- The reference's composed term is the three stages applied in turn to the arguments. -/
theorem result_stages (m : (ℓ : Loc nD τ sig) → Buf (Elt F) ℓ) (c : Dev nD) :
    ValueP.res_main_v51 m c
      = linearHost (aggregate (productHost (m ((c.tc : Thread nD τ).loc main_arg0)) (m ((c.tc : Thread nD τ).loc main_arg2)))
          (m ((c.tc : Thread nD τ).loc main_arg1)) (m ((c.tc : Thread nD τ).loc main_arg3)))
        (m ((c.tc : Thread nD τ).loc main_arg4)) (m ((c.tc : Thread nD τ).loc main_arg5)) := rfl

end Cert.ReferenceIdeal.Stages

end
-- ==== Proof.KernelRun.lean ====
/-
  The whole program's run, with the result named.

  The program is five stretches in a row: the first launch, three stretches of array operations between the launches,
  the second launch.  Each stretch is entered with every buffer at known contents and left with every buffer at known
  contents; the contents after the last stretch are the fold of the five (first launch's write-backs, the operations'
  results, the second launch's write-backs) from the launch memory.  So every execution ends with the result buffer at
  that fold's value there, and with the six argument arrays as they were launched, no stretch having written them.
-/
import proofs.«167798_j36249523978623_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last stretch's exit contents, and the arguments as launched. -/
theorem run : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.WholeRun

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.TransformBlocks.lean ====
/-
  The first launch: the node features times the convolution's weight matrix, 2000 rows at a time.

  Point t of the grid (t < 50) loads rows 2000·t … 2000·t + 1999 of x (a 100000 × 128 array) and the whole 128 × 128
  matrix W, multiplies them into a zero accumulator and stores the 2000 × 128 product as block t of the result.  Changing
  the operands' float format keeps every value, so entry (p, q) of that block is  Σ_k x(2000·t + p, k) · W(k, q):  rows do
  not mix, and the fifty blocks tile the result.  Hence the array the launch leaves is x · W, entry by entry.
-/
import proofs.«167798_j36249523978623_1_alg».proof.Proof.Gen.KernelIdeal.Frame
import proofs.«167798_j36249523978623_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Transform

open Cert.KernelIdeal Cert.KernelIdeal.Gen Cert.RowDot

variable (V : (c : Dev nD) → (b : Ref sig .tc) → Buf (Elt Ideal) ((c : Thread nD τ).loc b))

theorem offsets_zero : (![0, 0] : Fin 2 → Nat) = fun _ => 0 := funext fun a => by fin_cases a <;> rfl

/-- The product x · W of a 100000 × 128 array and a 128 × 128 matrix, entry by entry. -/
def product (x : S100000x128.Idx → EReal) (W : S128x128.Idx → EReal) : S100000x128.Idx → EReal :=
  fun i => rowDot (rowOf x (i 0)) W (i 1)

/-- What one point stores, at entry j of its block: row (j 0) of the loaded rows times the loaded matrix, at column (j 1). -/
theorem stored_apply (rows : FVec Ideal S2000x128 .f32) (W : FVec Ideal S128x128 .f32) (j : S2000x128.Idx) :
    k0_pay1 (F := Ideal) rows W j = rowDot (rowOf rows (j 0)) W (j 1) := by
  unfold k0_pay1
  exact matmul_plain_zero_apply none _ _ j

/-- The block indices over the grid: the rows' and the result's windows move down with the point, the matrix stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the launch finds. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x128) offsets_zero, View.ld_unit_zero (S := S128x128) offsets_zero]
  obtain ⟨e0, e1, e2, e3, e4, e5⟩ := block_indices t
  funext j
  show k0_pay1 (F := Ideal) (iblk0 V c 0 t) (iblk0 V c 1 t) j = product (V c main_arg0) (V c main_arg2) (((cfg0.win 2).blk t).view.emb j)
  rw [stored_apply]
  unfold product rowDot rowOf
  refine Finset.sum_congr rfl fun k _ => ?_
  have hx : (iblk0 V c 0 t : FVec Ideal S2000x128 .f32) (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hw : (iblk0 V c 1 t : FVec Ideal S128x128 .f32) (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) hx hw

/-- An index of the result lies in point t's block iff each coordinate lies in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the result lies in the block of point r / 2000: the fifty blocks tile the array. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; rw [hN]; omega⟩
  obtain ⟨e0, e1, e2, e3, e4, e5⟩ := block_indices t
  refine ⟨t, flush0_2 t, ?_⟩
  rw [mem_block]
  intro a
  have ht : t.val = (i 0).val / 2000 := rfl
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the first launch leaves is the product of the arrays it finds. -/
theorem result_eq (c : Dev nD) : (dat0 V c).arrAt 2 cfg0.N = product (V c main_arg0) (V c main_arg2) :=
  (dat0 V c).arrAt_eq_of_cover 2 (product (V c main_arg0) (V c main_arg2)) (fun t _ => flushed_eq V c t) blocks_cover

end Cert.KernelIdeal.Transform

end
-- ==== Proof.LinearBlocks.lean ====
/-
  The second launch: the final linear layer, 2000 rows at a time.

  Point t of the grid (t < 50) loads rows 2000·t … 2000·t + 1999 of the aggregated features h (a 100000 × 128 array),
  the whole 64 × 128 weight matrix W and the bias kept as a 1 × 64 array, multiplies the rows by the transposed matrix
  into a zero accumulator, adds the bias spread over the rows, and stores the 2000 × 64 result as block t.  Changing the
  operands' float format keeps every value, so entry (p, q) of that block is  Σ_k h(2000·t + p, k) · W(q, k) + b(q):
  rows do not mix, and the fifty blocks tile the result.  Hence the array the launch leaves is h · Wᵀ + b, entry by entry.
-/
import proofs.«167798_j36249523978623_1_alg».proof.Proof.Gen.KernelIdeal.Frame
import proofs.«167798_j36249523978623_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LinearOut

open Cert.KernelIdeal Cert.KernelIdeal.Gen Cert.RowDot

variable (V : (c : Dev nD) → (b : Ref sig .tc) → Buf (Elt Ideal) ((c : Thread nD τ).loc b))

theorem offsets_zero : (![0, 0] : Fin 2 → Nat) = fun _ => 0 := funext fun a => by fin_cases a <;> rfl

/-- The linear layer h · Wᵀ + b on a 100000 × 128 array, W a 64 × 128 matrix, b a 1 × 64 row: entry by entry. -/
def linear (h : S100000x128.Idx → EReal) (W : S64x128.Idx → EReal) (b : S1x64.Idx → EReal) : S100000x64.Idx → EReal :=
  fun i => (∑ k : Fin 128, h (ix2 (i 0) k) * W (ix2 (i 1) k)) + b (ix2 (0 : Fin 1) (i 1))

/-- What one point stores, at entry (p, q) of its block: row p of the loaded rows against row q of the matrix, plus b(q). -/
theorem stored_apply (rows : FVec Ideal S2000x128 .f32) (W : FVec Ideal S64x128 .f32) (b : FVec Ideal S1x64 .f32)
    (p : Fin 2000) (q : Fin 64) :
    k1_pay1 (F := Ideal) rows W b (ix2 p q) = (∑ k : Fin 128, rows (ix2 p k) * W (ix2 q k)) + b (ix2 (0 : Fin 1) q) := by
  unfold k1_pay1
  refine congrArg₂ (fun u v : EReal => u + v) ?_ ?_
  · refine (matmul_plain_zero_apply none _ _ (ix2 p q)).trans ?_
    unfold rowDot rowOf
    refine Finset.sum_congr rfl fun k _ => congrArg₂ (fun u v : EReal => u * v) ?_ ?_
    · show shapeCast S2000x128 rows _ (ix2 p k) = rows (ix2 p k)
      rw [shapeCast_self]
    · exact transpose_ix2_apply W _ k q
  · refine (broadcastTo_1b_ab_apply _ _ p q).trans ?_
    rw [shapeCast_self]

/-- The block indices over the grid: the rows' and the result's windows move down with the point, matrix and bias stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the linear layer of the arrays the launch finds. -/
theorem flushed_eq (c : Dev nD) (t : Fin cfg1.N) :
    (dat1 V c).flushed 3 t = ((cfg1.win 3).blk t).view.read (Elt Ideal) (linear (V c main_v46) (V c main_arg4) (V c main_v47)) := by
  show (cfg1.win 3).cut (grid1.coords t) ((dat1 V c).after 3 t) = _
  rw [after1_3]
  unfold out1_3
  rw [View.canon_unit_zero offsets_zero]
  simp only [View.ld_unit_zero (S := S2000x128) offsets_zero, View.ld_unit_zero (S := S64x128) offsets_zero,
    View.ld_unit_zero (S := S1x64) offsets_zero]
  obtain ⟨e0, e1, e2, e3, e4, e5, e6, e7⟩ := block_indices t
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (ix2 p q)
    = linear (V c main_v46) (V c main_arg4) (V c main_v47) (((cfg1.win 3).blk t).view.emb (ix2 p q))
  rw [stored_apply]
  unfold linear
  have hh : ∀ k : Fin 128, (iblk1 V c 0 t : FVec Ideal S2000x128 .f32) (ix2 p k)
      = V c main_v46 (ix2 ((((cfg1.win 3).blk t).view.emb (ix2 p q)) 0) k) := fun k => by
    show V c main_v46 (((cfg1.win 0).blk t).view.emb (ix2 p k)) = _
    refine congrArg (V c main_v46) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have hw : ∀ k : Fin 128, (iblk1 V c 1 t : FVec Ideal S64x128 .f32) (ix2 q k)
      = V c main_arg4 (ix2 ((((cfg1.win 3).blk t).view.emb (ix2 p q)) 1) k) := fun k => by
    show V c main_arg4 (((cfg1.win 1).blk t).view.emb (ix2 q k)) = _
    refine congrArg (V c main_arg4) (funext fun a => Fin.ext ?_)
    match a with
    | ⟨0, _⟩ => show win1_1.index t (0 : Fin 2) * 64 + 1 * q.val = win1_3.index t (1 : Fin 2) * 64 + 1 * q.val; omega
    | ⟨1, _⟩ => show win1_1.index t (1 : Fin 2) * 128 + 1 * k.val = k.val; omega
  have hb : (iblk1 V c 2 t : FVec Ideal S1x64 .f32) (ix2 (0 : Fin 1) q)
      = V c main_v47 (ix2 (0 : Fin 1) ((((cfg1.win 3).blk t).view.emb (ix2 p q)) 1)) := by
    show V c main_v47 (((cfg1.win 2).blk t).view.emb (ix2 (0 : Fin 1) q)) = _
    refine congrArg (V c main_v47) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  exact congrArg₂ (fun u v : EReal => u + v)
    (Finset.sum_congr rfl fun k _ => congrArg₂ (fun u v : EReal => u * v) (hh k) (hw k)) hb

/-- An index of the result lies in point t's block iff each coordinate lies in the block's range on its axis. -/
theorem mem_block (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v48).slice (win1_3.rect t)).set ↔ _
  rw [View.set_slice_whole, Rect.mem_set_unit]
  exact Iff.rfl

/-- Row r of the result lies in the block of point r / 2000: the fifty blocks tile the array. -/
theorem blocks_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 50 := N_1
  let t : Fin cfg1.N := ⟨(i 0).val / 2000, by show (i 0).val / 2000 < grid1.N; rw [hN]; omega⟩
  obtain ⟨e0, e1, e2, e3, e4, e5, e6, e7⟩ := block_indices t
  refine ⟨t, flush1_3 t, ?_⟩
  rw [mem_block]
  intro a
  have ht : t.val = (i 0).val / 2000 := rfl
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The array the second launch leaves is the linear layer of the arrays it finds. -/
theorem result_eq (c : Dev nD) :
    (dat1 V c).arrAt 3 cfg1.N = linear (V c main_v46) (V c main_arg4) (V c main_v47) :=
  (dat1 V c).arrAt_eq_of_cover 3 (linear (V c main_v46) (V c main_arg4) (V c main_v47)) (fun t _ => flushed_eq V c t) blocks_cover

end Cert.KernelIdeal.LinearOut

end
-- ==== Proof.HostStretch.lean ====
/-
  Between the two launches: what the second launch finds, as a function of what the first one left.

  The array operations between the launches never write the arguments.  From the first launch's result xw, the edge list
  and the convolution's bias they compute the aggregated features (the graph convolution's aggregation, one function of
  those three arrays); they recast the final layer's bias of 64 numbers as a 1 × 64 array; and they leave the final
  layer's weight matrix as it was.  Each statement is read off the operations' fold from any starting contents V.
-/
import proofs.«167798_j36249523978623_1_alg».proof.Proof.Gen.KernelIdeal.Frame
import proofs.«167798_j36249523978623_1_alg».proof.Proof.Aggregate
import Idealize.ShloMosaic.Lib.StableHlo.Run

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

set_option maxRecDepth 8192 in
set_option maxHeartbeats 4000000 in
/-- The second launch's row input is the aggregation of the first launch's result, the edge list and the bias. -/
theorem aggregated (V : Valuation τ sig (Elt F)) :
    after hostOps1_2 (after hostOps1_1 (after hostOps1 V)) (Proc.devRef .tc main_v46)
      = Cert.ReferenceIdeal.Conv.aggregate (F := F) (V (Proc.devRef .tc main_v0)) (V (Proc.devRef .tc main_arg1)) (V (Proc.devRef .tc main_arg3)) := by
  simp only [hostOps1, hostOps1_1, hostOps1_2]
  after_results_simp
  rfl

set_option maxRecDepth 8192 in
set_option maxHeartbeats 4000000 in
/-- The final layer's bias reaches the second launch recast as one row. -/
theorem bias_row (V : Valuation τ sig (Elt F)) :
    after hostOps1_2 (after hostOps1_1 (after hostOps1 V)) (Proc.devRef .tc main_v47)
      = shapeCast S1x64 (V (Proc.devRef .tc main_arg5)) shapeCasts_S64_S1x64 := by
  simp only [hostOps1, hostOps1_1, hostOps1_2]
  after_results_simp
  rfl

set_option maxRecDepth 8192 in
set_option maxHeartbeats 4000000 in
/-- The final layer's weight matrix reaches the second launch unchanged. -/
theorem weights_kept (V : Valuation τ sig (Elt F)) :
    after hostOps1_2 (after hostOps1_1 (after hostOps1 V)) (Proc.devRef .tc main_arg4) = V (Proc.devRef .tc main_arg4) := by
  simp only [hostOps1, hostOps1_1, hostOps1_2]
  after_results_simp

end Cert.KernelIdeal.Between

end
-- ==== Proof.KernelValue.lean ====
/-
  The kernel program's result as three stages: the product x · W, the aggregation over the graph, the final linear layer.

  The first launch leaves the product of the node features and the convolution's weights; the operations between the
  launches turn it, with the edge list and the convolution's bias, into the aggregated features, and recast the last
  bias as a row; the second launch leaves the linear layer of those.  No stretch writes an argument, so every argument
  is read as launched.
-/
import proofs.«167798_j36249523978623_1_alg».proof.Proof.TransformBlocks
import proofs.«167798_j36249523978623_1_alg».proof.Proof.LinearBlocks
import proofs.«167798_j36249523978623_1_alg».proof.Proof.HostStretch

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The three stages applied in turn to the arguments as launched. -/
def result (c : Dev nD) : Buf (Elt Ideal) ((c.tc : Thread nD τ).loc main_v48) :=
  LinearOut.linear
    (Cert.ReferenceIdeal.Conv.aggregate (F := Ideal)
      (Transform.product (m ((c.tc : Thread nD τ).loc main_arg0)) (m ((c.tc : Thread nD τ).loc main_arg2)))
      (m ((c.tc : Thread nD τ).loc main_arg1)) (m ((c.tc : Thread nD τ).loc main_arg3)))
    (m ((c.tc : Thread nD τ).loc main_arg4))
    (shapeCast S1x64 (m ((c.tc : Thread nD τ).loc main_arg5)) shapeCasts_S64_S1x64)

/-- What the first launch leaves in its result array. -/
theorem first_result (c : Dev nD) :
    W1 m ρ c (Proc.devRef .tc main_v0)
      = Transform.product (m ((c.tc : Thread nD τ).loc main_arg0)) (m ((c.tc : Thread nD τ).loc main_arg2)) :=
  (W1_arr m ρ c 2).trans (Transform.result_eq (V0 m ρ) c)

theorem edges_kept (c : Dev nD) : W1 m ρ c (Proc.devRef .tc main_arg1) = m ((c.tc : Thread nD τ).loc main_arg1) :=
  W1_of_ne m ρ c main_arg1 (by decide)
theorem conv_bias_kept (c : Dev nD) : W1 m ρ c (Proc.devRef .tc main_arg3) = m ((c.tc : Thread nD τ).loc main_arg3) :=
  W1_of_ne m ρ c main_arg3 (by decide)
theorem weights_kept (c : Dev nD) : W1 m ρ c (Proc.devRef .tc main_arg4) = m ((c.tc : Thread nD τ).loc main_arg4) :=
  W1_of_ne m ρ c main_arg4 (by decide)
theorem bias_kept (c : Dev nD) : W1 m ρ c (Proc.devRef .tc main_arg5) = m ((c.tc : Thread nD τ).loc main_arg5) :=
  W1_of_ne m ρ c main_arg5 (by decide)

/-- The result buffer after the last stretch holds the three stages of the arguments. -/
theorem value_eq (c : Dev nD) : W5 m ρ c (Proc.devRef .tc main_v48) = result m c := by
  refine ((W5_arr m ρ c 3).trans (LinearOut.result_eq (V4 m ρ) c)).trans ?_
  have e46 : V4 m ρ c main_v46 = Cert.ReferenceIdeal.Conv.aggregate (F := Ideal)
      (Transform.product (m ((c.tc : Thread nD τ).loc main_arg0)) (m ((c.tc : Thread nD τ).loc main_arg2)))
      (m ((c.tc : Thread nD τ).loc main_arg1)) (m ((c.tc : Thread nD τ).loc main_arg3)) :=
    (Between.aggregated (W1 m ρ c)).trans
      (congr (congr (congrArg (Cert.ReferenceIdeal.Conv.aggregate (F := Ideal)) (first_result m ρ c)) (edges_kept m ρ c)) (conv_bias_kept m ρ c))
  have e4 : V4 m ρ c main_arg4 = m ((c.tc : Thread nD τ).loc main_arg4) :=
    (Between.weights_kept (W1 m ρ c)).trans (weights_kept m ρ c)
  have e47 : V4 m ρ c main_v47 = shapeCast S1x64 (m ((c.tc : Thread nD τ).loc main_arg5)) shapeCasts_S64_S1x64 :=
    (Between.bias_row (W1 m ρ c)).trans (congrArg (fun v => shapeCast S1x64 v shapeCasts_S64_S1x64) (bias_kept m ρ c))
  unfold result
  exact congr (congr (congrArg LinearOut.linear e46) e4) e47

end Cert.KernelIdeal.Stages

end
-- ==== Proof.SameStages.lean ====
/-
  The two programs' stages are the same functions.

  The reference computes x · W as one product of the whole arrays, and the final layer as one product of the aggregated
  features with the transposed weight matrix plus the bias spread over the rows.  Entry by entry these are the sums the
  launches compute block by block:  (x · W)(p, q) = Σ_k x(p, k) · W(k, q)  and
  (h · Wᵀ + b)(p, q) = Σ_k h(p, k) · W(q, k) + b(q).  The aggregation between them is one and the same function.
-/
import proofs.«167798_j36249523978623_1_alg».proof.Proof.TransformBlocks
import proofs.«167798_j36249523978623_1_alg».proof.Proof.LinearBlocks
import proofs.«167798_j36249523978623_1_alg».proof.Proof.RefTerm
import Idealize.ShloMosaic.Lib.KernelVsHost

noncomputable section

open scoped BigOperators

namespace Cert.Proof.SameStages

open Idealize.ShloMosaic Idealize.ShloMosaic.ValueIdx Cert.RowDot

/-- The whole product, entry by entry, is the sum the first launch computes. -/
theorem product_eq (x : FVec Ideal Cert.ReferenceIdeal.S100000x128 .f32) (W : FVec Ideal Cert.ReferenceIdeal.S128x128 .f32) :
    Cert.ReferenceIdeal.Stages.productHost (F := Ideal) x W = Cert.KernelIdeal.Transform.product x W := by
  funext i
  unfold Cert.ReferenceIdeal.Stages.productHost Cert.KernelIdeal.Transform.product
  simp only [Host.dotGeneral]
  exact dotGeneral_plain_apply none _ x W i

/-- The whole final layer, entry by entry, is the sum the second launch computes; the bias of 64 numbers spread over
    the rows is the bias recast as one row and read at row 0. -/
theorem linear_eq (h : FVec Ideal Cert.ReferenceIdeal.S100000x128 .f32) (W : FVec Ideal Cert.ReferenceIdeal.S64x128 .f32)
    (b : FVec Ideal Cert.ReferenceIdeal.S64 .f32) (hc : (⟨1, ![64]⟩ : Shape).ShapeCasts ⟨2, ![1, 64]⟩) :
    Cert.ReferenceIdeal.Stages.linearHost (F := Ideal) h W b
      = Cert.KernelIdeal.LinearOut.linear h W (shapeCast ⟨2, ![1, 64]⟩ b hc) := by
  funext i
  obtain ⟨p, q, rfl⟩ : ∃ (p : Fin 100000) (q : Fin 64), i = ix2 p q := ⟨i 0, i 1, eq_ix2 i⟩
  unfold Cert.ReferenceIdeal.Stages.linearHost Cert.KernelIdeal.LinearOut.linear
  simp only [Host.dotGeneral]
  refine congrArg₂ (fun u v : EReal => u + v) ?_ ?_
  · refine (dotGeneral_plain_apply none _ _ _ (ix2 p q)).trans ?_
    unfold rowDot rowOf
    refine Finset.sum_congr rfl fun k _ => congrArg₂ (fun u v : EReal => u * v) rfl ?_
    exact transpose_ix2_apply W _ k q
  · refine (broadcastInDim_oneRow_apply _ _ p q).trans ?_
    refine (broadcastInDim_apply ![1] _ b (ix2 (0 : Fin 1) q) (ix1 q) ?_).trans (shapeCast_a_1a_apply b hc 0 q).symm
    intro a
    fin_cases a
    rfl

end Cert.Proof.SameStages

end
-- ==== Proof.lean ====
/-
  Equivalence of a two-launch graph-convolution program and its plain reference, over the extended reals.

  Both programs compute, from node features x (100000 × 128), an edge list, weights W₁ (128 × 128) and a bias b₁ of the
  convolution, and weights W₂ (64 × 128) and a bias b₂ of a final linear layer:
      h = aggregate(x · W₁, edges, b₁),      out = h · W₂ᵀ + b₂.
  The kernel program computes x · W₁ in a first launch, 2000 rows at a time, applies the aggregation with ordinary array
  operations, and computes the final layer in a second launch, again 2000 rows at a time; the reference does all of it
  with whole-array operations.  A block of rows of a matrix product depends only on those rows, so the blockwise products
  are the whole products entry by entry (each entry the same sum over k, in the same order); the aggregation is literally
  the same function in both programs and is never opened.  No law beyond that is used, so the inputs' finiteness is not.

  The three frame claims: each program terminates without fault and leaves its arguments unchanged (for the reference,
  its run with the result dropped).  The idealisation rewrote nothing, so that claim is trivial.
-/
import proofs.«167798_j36249523978623_1_alg».proof.Defs
import proofs.«167798_j36249523978623_1_alg».proof.Proof.Gen.Kernel
import proofs.«167798_j36249523978623_1_alg».proof.Proof.Gen.Kernel.Frame
import proofs.«167798_j36249523978623_1_alg».proof.Proof.Gen.KernelIdeal
import proofs.«167798_j36249523978623_1_alg».proof.Proof.Gen.KernelIdeal.Frame
import proofs.«167798_j36249523978623_1_alg».proof.Proof.Gen.ReferenceIdeal
import proofs.«167798_j36249523978623_1_alg».proof.Proof.Gen.Pre_finite_inputs
import proofs.«167798_j36249523978623_1_alg».proof.Proof.RefRun
import proofs.«167798_j36249523978623_1_alg».proof.Proof.RefTerm
import proofs.«167798_j36249523978623_1_alg».proof.Proof.KernelRun
import proofs.«167798_j36249523978623_1_alg».proof.Proof.KernelValue
import proofs.«167798_j36249523978623_1_alg».proof.Proof.SameStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the three stages of the (agreeing) arguments: the kernel program's stages are the
    blockwise sums, the reference's the whole-array operations, equal entry by entry. -/
theorem algebraic : Cert.algebraic_KernelIdeal_ReferenceIdeal := by
  intro m ρ m' ρ' _ hagree
  refine ⟨fun c => Cert.KernelIdeal.Stages.result m c, ?_, ?_⟩
  · exact (θ_run Cert.KernelIdeal.defs _ _).mono
      (fun _ h c => ⟨(h c).1.trans (Cert.KernelIdeal.Stages.value_eq m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.Stages.result_stages, a0, a1, a2, a3, a4, a5]
    unfold Cert.KernelIdeal.Stages.result
    rw [SameStages.product_eq, SameStages.linear_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
